-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x262144 : Shape := ⟨2, ![64, 262144]⟩
abbrev S_ : Shape := ⟨0, ![]⟩

class Facts : Prop where
  bcast_S_S64x262144 : S_.BroadcastsInDim S64x262144 (![] : Fin 0 → Fin S64x262144.rank)
  reducesTo_S64x262144_S_d0_1 : S64x262144.ReducesTo [0, 1] S_
  h_S_ : 0 < S_.numel

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S64x262144 .f32) (main_arg1 : FVec F S64x262144 .f32) : IVec S_ 1 :=
  let main_v0 : FVec F S64x262144 .f32 := Host.absf main_arg0
  let main_cst : FVec F S_ .f32 := constant S_ .f32 0x7F800000#32
  let main_v1 : FVec F S64x262144 .f32 := broadcastInDim S64x262144 ![] bcast_S_S64x262144 main_cst
  let main_v2 : IVec S64x262144 1 := cmpf .olt main_v0 main_v1
  let main_c : IVec S_ 1 := constantI S_ 1 1#1
  let main_v3 : IVec S_ 1 := (fun x v => Host.reduce IntOp.andi x v reducesTo_S64x262144_S_d0_1 h_S_) main_v2 main_c
  let main_v4 : FVec F S64x262144 .f32 := Host.absf main_arg1
  let main_cst_0 : FVec F S_ .f32 := constant S_ .f32 0x7F800000#32
  let main_v5 : FVec F S64x262144 .f32 := broadcastInDim S64x262144 ![] bcast_S_S64x262144 main_cst_0
  let main_v6 : IVec S64x262144 1 := cmpf .olt main_v4 main_v5
  let main_c_1 : IVec S_ 1 := constantI S_ 1 1#1
  let main_v7 : IVec S_ 1 := (fun x v => Host.reduce IntOp.andi x v reducesTo_S64x262144_S_d0_1 h_S_) main_v6 main_c_1
  let main_v8 : IVec S_ 1 := andi main_v3 main_v7
  let main_cst_2 : FVec F S_ .f32 := constant S_ .f32 0x00000000#32
  let main_v9 : FVec F S64x262144 .f32 := broadcastInDim S64x262144 ![] bcast_S_S64x262144 main_cst_2
  let main_v10 : IVec S64x262144 1 := cmpf .ogt main_arg0 main_v9
  let main_c_3 : IVec S_ 1 := constantI S_ 1 1#1
  let main_v11 : IVec S_ 1 := (fun x v => Host.reduce IntOp.andi x v reducesTo_S64x262144_S_d0_1 h_S_) main_v10 main_c_3
  let main_v12 : IVec S_ 1 := andi main_v8 main_v11
  let main_cst_4 : FVec F S_ .f32 := constant S_ .f32 0x3F800000#32
  let main_v13 : FVec F S64x262144 .f32 := broadcastInDim S64x262144 ![] bcast_S_S64x262144 main_cst_4
  let main_v14 : IVec S64x262144 1 := cmpf .olt main_arg0 main_v13
  let main_c_5 : IVec S_ 1 := constantI S_ 1 1#1
  let main_v15 : IVec S_ 1 := (fun x v => Host.reduce IntOp.andi x v reducesTo_S64x262144_S_d0_1 h_S_) main_v14 main_c_5
  fn_part1 (F := F) main_v12 main_v15
-- ==== Kernel.lean ====
abbrev S64x262144 : Shape := ⟨2, ![64, 262144]⟩
abbrev S64x1 : Shape := ⟨2, ![64, 1]⟩
abbrev S32x32768 : Shape := ⟨2, ![32, 32768]⟩
abbrev S32x1 : Shape := ⟨2, ![32, 1]⟩
abbrev S32 : Shape := ⟨1, ![32]⟩
abbrev S_ : Shape := ⟨0, ![]⟩

abbrev nBuf : Space → Nat
  | .hbm => 5
  | .vmem => 9
  | .smem => 0
  | _ => 0

abbrev bufTy : (tb : Table) → Fin (tcTables nBuf tb) → BufTy
  | .hbm, ⟨0, _⟩ => ⟨S64x262144, .f32⟩
  | .hbm, ⟨1, _⟩ => ⟨S64x262144, .f32⟩
  | .hbm, ⟨2, _⟩ => ⟨S64x1, .f32⟩
  | .hbm, ⟨3, _⟩ => ⟨S_, .f32⟩
  | .hbm, ⟨4, _⟩ => ⟨S_, .f32⟩
  | .local _ .vmem, ⟨0, _⟩ => ⟨S32x32768, .f32⟩
  | .local _ .vmem, ⟨1, _⟩ => ⟨S32x32768, .f32⟩
  | .local _ .vmem, ⟨2, _⟩ => ⟨S32x32768, .f32⟩
  | .local _ .vmem, ⟨3, _⟩ => ⟨S32x32768, .f32⟩
  | .local _ .vmem, ⟨4, _⟩ => ⟨S32x1, .f32⟩
  | .local _ .vmem, ⟨5, _⟩ => ⟨S32x1, .f32⟩
  | .local _ .vmem, ⟨6, _⟩ => ⟨S32x1, .f32⟩
  | .local _ .vmem, ⟨7, _⟩ => ⟨S32x1, .f32⟩
  | .local _ .vmem, ⟨8, _⟩ => ⟨S32x1, .f32⟩
  | _, _ => ⟨S64x262144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v34 : BitVec 1 := Scalar.cmpi .eq arg1 c7_i32
  let v35 : BitVec 32 := Scalar.extui v34
  let c0_i32_20 : BitVec 32 := 0#32
  let v36 : BitVec 1 := Scalar.cmpi .ne v35 c0_i32_20
  v36

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S32x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x32768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S32x32768_S32x32768_0_0 : ∀ a, (![0, 0] : Fin 2 → Nat) a + S32x32768.size a ≤ S32x32768.size a
  h_S32x32768 : 0 < S32x32768.numel
  reduces_S32x32768_S32 : S32x32768.Reduces [1] S32
  shapeCasts_S32_S32x1 : S32.ShapeCasts S32x1
  reducesTo_S64x1_S_d0_1 : S64x1.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x32768.size a ≤ S64x262144.size a
  hwx0_0 : ∀ i : grid0.Coords, EltTy.bits .f32 = 32 ∨ (Rect.block (s := S64x262144) S32x32768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x32768.size a ≤ S64x262144.size a
  hwx0_1 : ∀ i : grid0.Coords, EltTy.bits .f32 = 32 ∨ (Rect.block (s := S64x262144) S32x32768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x1.size a ≤ S64x1.size a
  hwx0_2 : ∀ i : grid0.Coords, EltTy.bits .f32 = 32 ∨ (Rect.block (s := S64x1) S32x1.size (cc0_transform_2 i) (hinb0_2 i)).WholeWords (EltTy.packing .f32)

variable [Facts₀]

abbrev win0_0 : Pipeline.Window sig grid0 :=
  Pipeline.Window.ofSpec (Memref.whole main_arg0) S32x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x32768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S32x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S64x262144 : Shape := ⟨2, ![64, 262144]⟩
abbrev S_ : Shape := ⟨0, ![]⟩
abbrev S64 : Shape := ⟨1, ![64]⟩
abbrev S64x1 : Shape := ⟨2, ![64, 1]⟩

abbrev nBuf : Space → Nat
  | .hbm => 32
  | .vmem => 0
  | .smem => 0
  | _ => 0

abbrev bufTy : (tb : Table) → Fin (tcTables nBuf tb) → BufTy
  | .hbm, ⟨0, _⟩ => ⟨S64x262144, .f32⟩
  | .hbm, ⟨1, _⟩ => ⟨S64x262144, .f32⟩
  | .hbm, ⟨2, _⟩ => ⟨S_, .f32⟩
  | .hbm, ⟨3, _⟩ => ⟨S64, .f32⟩
  | .hbm, ⟨4, _⟩ => ⟨S64x1, .f32⟩
  | .hbm, ⟨5, _⟩ => ⟨S_, .f32⟩
  | .hbm, ⟨6, _⟩ => ⟨S64x1, .f32⟩
  | .hbm, ⟨7, _⟩ => ⟨S64x1, .f32⟩
  | .hbm, ⟨8, _⟩ => ⟨S_, .f32⟩
  | .hbm, ⟨9, _⟩ => ⟨S64x1, .f32⟩
  | .hbm, ⟨10, _⟩ => ⟨S64x1, .f32⟩
  | .hbm, ⟨11, _⟩ => ⟨S64x262144, .f32⟩
  | .hbm, ⟨12, _⟩ => ⟨S64x262144, .f32⟩
  | .hbm, ⟨13, _⟩ => ⟨S64x262144, .f32⟩
  | .hbm, ⟨14, _⟩ => ⟨S64x262144, .f32⟩
  | .hbm, ⟨15, _⟩ => ⟨S_, .f32⟩
  | .hbm, ⟨16, _⟩ => ⟨S64x1, .f32⟩
  | .hbm, ⟨17, _⟩ => ⟨S64x1, .f32⟩
  | .hbm, ⟨18, _⟩ => ⟨S_, .f32⟩
  | .hbm, ⟨19, _⟩ => ⟨S64x262144, .f32⟩
  | .hbm, ⟨20, _⟩ => ⟨S64x262144, .f32⟩
  | .hbm, ⟨21, _⟩ => ⟨S64x262144, .f32⟩
  | .hbm, ⟨22, _⟩ => ⟨S64x262144, .f32⟩
  | .hbm, ⟨23, _⟩ => ⟨S_, .f32⟩
  | .hbm, ⟨24, _⟩ => ⟨S64x262144, .f32⟩
  | .hbm, ⟨25, _⟩ => ⟨S64x262144, .f32⟩
  | .hbm, ⟨26, _⟩ => ⟨S64x262144, .f32⟩
  | .hbm, ⟨27, _⟩ => ⟨S64x262144, .f32⟩
  | .hbm, ⟨28, _⟩ => ⟨S64x262144, .f32⟩
  | .hbm, ⟨29, _⟩ => ⟨S_, .f32⟩
  | .hbm, ⟨30, _⟩ => ⟨S_, .f32⟩
  | .hbm, ⟨31, _⟩ => ⟨S_, .f32⟩
  | _, _ => ⟨S64x262144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]

class Facts₀ : Prop where
  reducesTo_S64x262144_S64_d1 : S64x262144.ReducesTo [1] S64
  h_S_ : 0 < S_.numel
  bcast_S64_S64x1_0 : S64.BroadcastsInDim S64x1 (![0] : Fin 1 → Fin S64x1.rank)
  bcast_S_S64x1 : S_.BroadcastsInDim S64x1 (![] : Fin 0 → Fin S64x1.rank)
  bcast_S64x1_S64x262144_0_1 : S64x1.BroadcastsInDim S64x262144 (![0, 1] : Fin 2 → Fin S64x262144.rank)
  bcast_S_S64x262144 : S_.BroadcastsInDim S64x262144 (![] : Fin 0 → Fin S64x262144.rank)
  reducesTo_S64x262144_S_d0_1 : S64x262144.ReducesTo [0, 1] S_

variable [Facts₀]

class Facts : Prop extends Facts₀ where

variable [Facts]
-- ==== Proof.Pieces.lean ====
import proofs.«100406_j39307540693710_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

/-
  What each control case of the body leaves in the three row accumulators (and, at the last column block, in the output
  block), read back as a pure function of the two input blocks and of what the accumulators held before.
  First column block (case A): each accumulator is zeroed and the block's row sums are added to the zero.
  Middle column blocks (case B): the block's row sums are added to what the accumulator held.
  Last column block (case C): the same, and the output block is the weighted combination of the three updated accumulators.
-/
namespace Cert.KernelIdeal.Pieces
open Cert.KernelIdeal Cert.KernelIdeal.Gen
variable {F : FTy → Type} [FloatOps F]

theorem hz : (![0, 0] : Fin 2 → Nat) = fun _ => 0 := funext fun a => by fin_cases a <;> rfl

/-- Case B, accumulator 0. -/
theorem scrB0 (c : Dev nD) (i : grid0.Coords) (arg2 : Memref sig .tc .vmem S32x32768 .f32) (harg2 : arg2.IsWhole) (arg3 : Memref sig .tc .vmem S32x32768 .f32) (harg3 : arg3.IsWhole) (arg4 : Memref sig .tc .vmem S32x1 .f32) (harg4 : arg4.IsWhole) (arg5 : Memref sig .tc .vmem S32x1 .f32) (harg5 : arg5.IsWhole) (arg6 : Memref sig .tc .vmem S32x1 .f32) (harg6 : arg6.IsWhole) (arg7 : Memref sig .tc .vmem S32x1 .f32) (harg7 : arg7.IsWhole) (hc0 : ¬cond0_0 i) (hc1 : ¬cond0_1 i)
    (x0 x1 : Vec F S32x32768 .f32) (xs0 xs1 xs2 : Vec F S32x1 .f32) :
    sout0_B_0 c i arg2 harg2 arg3 harg3 arg4 harg4 arg5 harg5 arg6 harg6 arg7 harg7 hc0 hc1 x0 x1 xs0 xs1 xs2 = k0_pay6 x1 xs0 := by
  unfold sout0_B_0
  rw [View.read_writes_eq_canon _ _ _ (scover0_B_0 c i arg2 harg2 arg3 harg3 arg4 harg4 arg5 harg5 arg6 harg6 arg7 harg7 hc0 hc1 x0 x1 xs0 xs1 xs2)]
  unfold kernelRun0_B
  dsimp only
  try sl_unfold_words
  rw [View.canon_unit_zero hz]
  simp only [View.readAt_eq_ld, harg3.read_unread, harg5.read_unread, View.ld_unit_zero (S := S32x32768) hz, View.ld_unit_zero (S := S32x1) hz]

/-- Case B, accumulator 1. -/
theorem scrB1 (c : Dev nD) (i : grid0.Coords) (arg2 : Memref sig .tc .vmem S32x32768 .f32) (harg2 : arg2.IsWhole) (arg3 : Memref sig .tc .vmem S32x32768 .f32) (harg3 : arg3.IsWhole) (arg4 : Memref sig .tc .vmem S32x1 .f32) (harg4 : arg4.IsWhole) (arg5 : Memref sig .tc .vmem S32x1 .f32) (harg5 : arg5.IsWhole) (arg6 : Memref sig .tc .vmem S32x1 .f32) (harg6 : arg6.IsWhole) (arg7 : Memref sig .tc .vmem S32x1 .f32) (harg7 : arg7.IsWhole) (hc0 : ¬cond0_0 i) (hc1 : ¬cond0_1 i)
    (x0 x1 : Vec F S32x32768 .f32) (xs0 xs1 xs2 : Vec F S32x1 .f32) :
    sout0_B_1 c i arg2 harg2 arg3 harg3 arg4 harg4 arg5 harg5 arg6 harg6 arg7 harg7 hc0 hc1 x0 x1 xs0 xs1 xs2 = k0_pay7 x0 x1 xs1 := by
  unfold sout0_B_1
  rw [View.read_writes_eq_canon _ _ _ (scover0_B_1 c i arg2 harg2 arg3 harg3 arg4 harg4 arg5 harg5 arg6 harg6 arg7 harg7 hc0 hc1 x0 x1 xs0 xs1 xs2)]
  unfold kernelRun0_B
  dsimp only
  try sl_unfold_words
  rw [View.canon_unit_zero hz]
  simp only [View.readAt_eq_ld, harg2.read_unread, harg3.read_unread, harg6.read_unread, View.ld_unit_zero (S := S32x32768) hz, View.ld_unit_zero (S := S32x1) hz]

/-- Case B, accumulator 2. -/
theorem scrB2 (c : Dev nD) (i : grid0.Coords) (arg2 : Memref sig .tc .vmem S32x32768 .f32) (harg2 : arg2.IsWhole) (arg3 : Memref sig .tc .vmem S32x32768 .f32) (harg3 : arg3.IsWhole) (arg4 : Memref sig .tc .vmem S32x1 .f32) (harg4 : arg4.IsWhole) (arg5 : Memref sig .tc .vmem S32x1 .f32) (harg5 : arg5.IsWhole) (arg6 : Memref sig .tc .vmem S32x1 .f32) (harg6 : arg6.IsWhole) (arg7 : Memref sig .tc .vmem S32x1 .f32) (harg7 : arg7.IsWhole) (hc0 : ¬cond0_0 i) (hc1 : ¬cond0_1 i)
    (x0 x1 : Vec F S32x32768 .f32) (xs0 xs1 xs2 : Vec F S32x1 .f32) :
    sout0_B_2 c i arg2 harg2 arg3 harg3 arg4 harg4 arg5 harg5 arg6 harg6 arg7 harg7 hc0 hc1 x0 x1 xs0 xs1 xs2 = k0_pay1 (k0_pay8 x0 x1 xs2) := by
  unfold sout0_B_2
  rw [View.read_writes_eq_canon _ _ _ (scover0_B_2 c i arg2 harg2 arg3 harg3 arg4 harg4 arg5 harg5 arg6 harg6 arg7 harg7 hc0 hc1 x0 x1 xs0 xs1 xs2)]
  unfold kernelRun0_B
  dsimp only
  try sl_unfold_words
  rw [View.canon_unit_zero hz]
  simp only [View.readAt_eq_ld, harg2.read_unread, harg3.read_unread, harg7.read_unread, View.ld_unit_zero (S := S32x32768) hz, View.ld_unit_zero (S := S32x1) hz]

/-- Case C, accumulator 0. -/
theorem scrC0 (c : Dev nD) (i : grid0.Coords) (arg2 : Memref sig .tc .vmem S32x32768 .f32) (harg2 : arg2.IsWhole) (arg3 : Memref sig .tc .vmem S32x32768 .f32) (harg3 : arg3.IsWhole) (arg4 : Memref sig .tc .vmem S32x1 .f32) (harg4 : arg4.IsWhole) (arg5 : Memref sig .tc .vmem S32x1 .f32) (harg5 : arg5.IsWhole) (arg6 : Memref sig .tc .vmem S32x1 .f32) (harg6 : arg6.IsWhole) (arg7 : Memref sig .tc .vmem S32x1 .f32) (harg7 : arg7.IsWhole) (hc0 : ¬cond0_0 i) (hc1 : cond0_1 i)
    (x0 x1 : Vec F S32x32768 .f32) (xs0 xs1 xs2 : Vec F S32x1 .f32) :
    sout0_C_0 c i arg2 harg2 arg3 harg3 arg4 harg4 arg5 harg5 arg6 harg6 arg7 harg7 hc0 hc1 x0 x1 xs0 xs1 xs2 = k0_pay6 x1 xs0 := by
  unfold sout0_C_0
  rw [View.read_writes_eq_canon _ _ _ (scover0_C_0 c i arg2 harg2 arg3 harg3 arg4 harg4 arg5 harg5 arg6 harg6 arg7 harg7 hc0 hc1 x0 x1 xs0 xs1 xs2)]
  unfold kernelRun0_C
  dsimp only
  try sl_unfold_words
  rw [View.canon_unit_zero hz]
  simp only [View.readAt_eq_ld, harg3.read_unread, harg5.read_unread, View.ld_unit_zero (S := S32x32768) hz, View.ld_unit_zero (S := S32x1) hz]

/-- Case C, accumulator 1. -/
theorem scrC1 (c : Dev nD) (i : grid0.Coords) (arg2 : Memref sig .tc .vmem S32x32768 .f32) (harg2 : arg2.IsWhole) (arg3 : Memref sig .tc .vmem S32x32768 .f32) (harg3 : arg3.IsWhole) (arg4 : Memref sig .tc .vmem S32x1 .f32) (harg4 : arg4.IsWhole) (arg5 : Memref sig .tc .vmem S32x1 .f32) (harg5 : arg5.IsWhole) (arg6 : Memref sig .tc .vmem S32x1 .f32) (harg6 : arg6.IsWhole) (arg7 : Memref sig .tc .vmem S32x1 .f32) (harg7 : arg7.IsWhole) (hc0 : ¬cond0_0 i) (hc1 : cond0_1 i)
    (x0 x1 : Vec F S32x32768 .f32) (xs0 xs1 xs2 : Vec F S32x1 .f32) :
    sout0_C_1 c i arg2 harg2 arg3 harg3 arg4 harg4 arg5 harg5 arg6 harg6 arg7 harg7 hc0 hc1 x0 x1 xs0 xs1 xs2 = k0_pay7 x0 x1 xs1 := by
  unfold sout0_C_1
  rw [View.read_writes_eq_canon _ _ _ (scover0_C_1 c i arg2 harg2 arg3 harg3 arg4 harg4 arg5 harg5 arg6 harg6 arg7 harg7 hc0 hc1 x0 x1 xs0 xs1 xs2)]
  unfold kernelRun0_C
  dsimp only
  try sl_unfold_words
  rw [View.canon_unit_zero hz]
  simp only [View.readAt_eq_ld, harg2.read_unread, harg3.read_unread, harg6.read_unread, View.ld_unit_zero (S := S32x32768) hz, View.ld_unit_zero (S := S32x1) hz]

/-- Case C, accumulator 2. -/
theorem scrC2 (c : Dev nD) (i : grid0.Coords) (arg2 : Memref sig .tc .vmem S32x32768 .f32) (harg2 : arg2.IsWhole) (arg3 : Memref sig .tc .vmem S32x32768 .f32) (harg3 : arg3.IsWhole) (arg4 : Memref sig .tc .vmem S32x1 .f32) (harg4 : arg4.IsWhole) (arg5 : Memref sig .tc .vmem S32x1 .f32) (harg5 : arg5.IsWhole) (arg6 : Memref sig .tc .vmem S32x1 .f32) (harg6 : arg6.IsWhole) (arg7 : Memref sig .tc .vmem S32x1 .f32) (harg7 : arg7.IsWhole) (hc0 : ¬cond0_0 i) (hc1 : cond0_1 i)
    (x0 x1 : Vec F S32x32768 .f32) (xs0 xs1 xs2 : Vec F S32x1 .f32) :
    sout0_C_2 c i arg2 harg2 arg3 harg3 arg4 harg4 arg5 harg5 arg6 harg6 arg7 harg7 hc0 hc1 x0 x1 xs0 xs1 xs2 = k0_pay1 (k0_pay8 x0 x1 xs2) := by
  unfold sout0_C_2
  rw [View.read_writes_eq_canon _ _ _ (scover0_C_2 c i arg2 harg2 arg3 harg3 arg4 harg4 arg5 harg5 arg6 harg6 arg7 harg7 hc0 hc1 x0 x1 xs0 xs1 xs2)]
  unfold kernelRun0_C
  dsimp only
  try sl_unfold_words
  rw [View.canon_unit_zero hz]
  simp only [View.readAt_eq_ld, harg2.read_unread, harg3.read_unread, harg7.read_unread, View.ld_unit_zero (S := S32x32768) hz, View.ld_unit_zero (S := S32x1) hz]

/-- Case C, the output block: the combination of the three accumulators as the case has just updated them. -/
theorem outC (c : Dev nD) (i : grid0.Coords) (arg2 : Memref sig .tc .vmem S32x32768 .f32) (harg2 : arg2.IsWhole) (arg3 : Memref sig .tc .vmem S32x32768 .f32) (harg3 : arg3.IsWhole) (arg4 : Memref sig .tc .vmem S32x1 .f32) (harg4 : arg4.IsWhole) (arg5 : Memref sig .tc .vmem S32x1 .f32) (harg5 : arg5.IsWhole) (arg6 : Memref sig .tc .vmem S32x1 .f32) (harg6 : arg6.IsWhole) (arg7 : Memref sig .tc .vmem S32x1 .f32) (harg7 : arg7.IsWhole) (hc0 : ¬cond0_0 i) (hc1 : cond0_1 i)
    (x0 x1 : Vec F S32x32768 .f32) (xs0 xs1 xs2 : Vec F S32x1 .f32) :
    out0_C_2 c i arg2 harg2 arg3 harg3 arg4 harg4 arg5 harg5 arg6 harg6 arg7 harg7 hc0 hc1 x0 x1 xs0 xs1 xs2 = k0_pay2 (k0_pay6 x1 xs0) (k0_pay7 x0 x1 xs1) (k0_pay1 (k0_pay8 x0 x1 xs2)) := by
  unfold out0_C_2
  rw [View.read_writes_eq_canon _ _ _ (cover0_C_2 c i arg2 harg2 arg3 harg3 arg4 harg4 arg5 harg5 arg6 harg6 arg7 harg7 hc0 hc1 x0 x1 xs0 xs1 xs2)]
  unfold kernelRun0_C
  dsimp only
  sl_unfold_words
  rw [View.canon_unit_zero hz, View.readCov_unit_zero (S := S32x1) _ hz, View.readCov_unit_zero (S := S32x1) _ hz,
    View.readCov_unit_zero (S := S32x1) _ hz]
  simp only [View.readAt_eq_ld, harg2.read_unread, harg3.read_unread, harg5.read_unread, harg6.read_unread, harg7.read_unread,
    View.ld_unit_zero (S := S32x32768) hz, View.ld_unit_zero (S := S32x1) hz]

/-- Case A, accumulator 0: zeroed, read back, and the block's row sums added. -/
theorem scrA0 (c : Dev nD) (i : grid0.Coords) (arg2 : Memref sig .tc .vmem S32x32768 .f32) (harg2 : arg2.IsWhole) (arg3 : Memref sig .tc .vmem S32x32768 .f32) (harg3 : arg3.IsWhole) (arg4 : Memref sig .tc .vmem S32x1 .f32) (harg4 : arg4.IsWhole) (arg5 : Memref sig .tc .vmem S32x1 .f32) (harg5 : arg5.IsWhole) (arg6 : Memref sig .tc .vmem S32x1 .f32) (harg6 : arg6.IsWhole) (arg7 : Memref sig .tc .vmem S32x1 .f32) (harg7 : arg7.IsWhole) (hc0 : cond0_0 i) (hc1 : ¬cond0_1 i)
    (x0 x1 : Vec F S32x32768 .f32) :
    sout0_A_0 c i arg2 harg2 arg3 harg3 arg4 harg4 arg5 harg5 arg6 harg6 arg7 harg7 hc0 hc1 x0 x1 = k0_pay6 x1 k0_pay3 := by
  unfold sout0_A_0
  rw [View.read_writes_eq_canon _ _ _ (scover0_A_0 c i arg2 harg2 arg3 harg3 arg4 harg4 arg5 harg5 arg6 harg6 arg7 harg7 hc0 hc1 x0 x1)]
  unfold kernelRun0_A
  dsimp only
  sl_unfold_words
  rw [View.canon_cons_unit_zero (S := S32x1) hz, View.readCov_unit_zero (S := S32x1) _ hz]
  simp only [View.readAt_eq_ld, harg3.read_unread, View.ld_unit_zero (S := S32x32768) hz]

/-- Case A, accumulator 1: zeroed, read back, and the block's row sums added. -/
theorem scrA1 (c : Dev nD) (i : grid0.Coords) (arg2 : Memref sig .tc .vmem S32x32768 .f32) (harg2 : arg2.IsWhole) (arg3 : Memref sig .tc .vmem S32x32768 .f32) (harg3 : arg3.IsWhole) (arg4 : Memref sig .tc .vmem S32x1 .f32) (harg4 : arg4.IsWhole) (arg5 : Memref sig .tc .vmem S32x1 .f32) (harg5 : arg5.IsWhole) (arg6 : Memref sig .tc .vmem S32x1 .f32) (harg6 : arg6.IsWhole) (arg7 : Memref sig .tc .vmem S32x1 .f32) (harg7 : arg7.IsWhole) (hc0 : cond0_0 i) (hc1 : ¬cond0_1 i)
    (x0 x1 : Vec F S32x32768 .f32) :
    sout0_A_1 c i arg2 harg2 arg3 harg3 arg4 harg4 arg5 harg5 arg6 harg6 arg7 harg7 hc0 hc1 x0 x1 = k0_pay7 x0 x1 k0_pay4 := by
  unfold sout0_A_1
  rw [View.read_writes_eq_canon _ _ _ (scover0_A_1 c i arg2 harg2 arg3 harg3 arg4 harg4 arg5 harg5 arg6 harg6 arg7 harg7 hc0 hc1 x0 x1)]
  unfold kernelRun0_A
  dsimp only
  sl_unfold_words
  rw [View.canon_cons_unit_zero (S := S32x1) hz, View.readCov_unit_zero (S := S32x1) _ hz]
  simp only [View.readAt_eq_ld, harg2.read_unread, harg3.read_unread, View.ld_unit_zero (S := S32x32768) hz]

/-- Case A, accumulator 2: zeroed, read back, and the block's row sums added. -/
theorem scrA2 (c : Dev nD) (i : grid0.Coords) (arg2 : Memref sig .tc .vmem S32x32768 .f32) (harg2 : arg2.IsWhole) (arg3 : Memref sig .tc .vmem S32x32768 .f32) (harg3 : arg3.IsWhole) (arg4 : Memref sig .tc .vmem S32x1 .f32) (harg4 : arg4.IsWhole) (arg5 : Memref sig .tc .vmem S32x1 .f32) (harg5 : arg5.IsWhole) (arg6 : Memref sig .tc .vmem S32x1 .f32) (harg6 : arg6.IsWhole) (arg7 : Memref sig .tc .vmem S32x1 .f32) (harg7 : arg7.IsWhole) (hc0 : cond0_0 i) (hc1 : ¬cond0_1 i)
    (x0 x1 : Vec F S32x32768 .f32) :
    sout0_A_2 c i arg2 harg2 arg3 harg3 arg4 harg4 arg5 harg5 arg6 harg6 arg7 harg7 hc0 hc1 x0 x1 = k0_pay1 (k0_pay8 x0 x1 k0_pay5) := by
  unfold sout0_A_2
  rw [View.read_writes_eq_canon _ _ _ (scover0_A_2 c i arg2 harg2 arg3 harg3 arg4 harg4 arg5 harg5 arg6 harg6 arg7 harg7 hc0 hc1 x0 x1)]
  unfold kernelRun0_A
  dsimp only
  sl_unfold_words
  rw [View.canon_cons_unit_zero (S := S32x1) hz, View.readCov_unit_zero (S := S32x1) _ hz]
  simp only [View.readAt_eq_ld, harg2.read_unread, harg3.read_unread, View.ld_unit_zero (S := S32x32768) hz]

end Cert.KernelIdeal.Pieces
end
-- ==== Proof.Steps.lean ====
import proofs.«100406_j39307540693710_2_alg».proof.Proof.Pieces

/-
  The three row accumulators point by point. The grid's point t = 8*b + j is row block b, column block j. At j = 0 each
  accumulator restarts from zero plus this block's row sums; at every other j it is what the point before left plus this
  block's row sums; and at j = 7 the output block is the weighted combination of the three accumulators as that point
  leaves them.
-/

noncomputable section

open Idealize.ShloMosaic Idealize.ShloMosaic.TcCoe Idealize.SL.Sem

namespace Cert.KernelIdeal.Steps
open Cert.KernelIdeal Cert.KernelIdeal.Gen
variable {F : FTy → Type} [FloatOps F]
variable (m : (ℓ : Loc nD τ sig) → Buf (Elt F) ℓ)

/-- Accumulator 0 at the first column block of a row block. -/
theorem first0 (c : Dev nD) (t : Fin cfg0.N) (h0 : t.val % 8 = 0) :
    (outsAt0 m c t.val t.isLt).2.1 = k0_pay6 (iblk m c 1 t) k0_pay3 := by
  have h1 : ¬t.val % 8 = 7 := by omega
  rw [outsAt0_A m c t h0 h1]
  exact Pieces.scrA0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t)

/-- Accumulator 0 at a later column block: the point before's, plus this block's. -/
theorem next0 (c : Dev nD) (t : Fin cfg0.N) (h0 : ¬t.val % 8 = 0) :
    (outsAt0 m c t.val t.isLt).2.1 = k0_pay6 (iblk m c 1 t) (outsAt0 m c (t.val - 1) (Nat.lt_of_le_of_lt (Nat.sub_le _ _) t.isLt)).2.1 := by
  by_cases h1 : t.val % 8 = 7
  · rw [outsAt0_C m c t h0 h1]
    exact Pieces.scrC0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2
  · rw [outsAt0_B m c t h0 h1]
    exact Pieces.scrB0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2

/-- Accumulator 1 at the first column block of a row block. -/
theorem first1 (c : Dev nD) (t : Fin cfg0.N) (h0 : t.val % 8 = 0) :
    (outsAt0 m c t.val t.isLt).2.2.1 = k0_pay7 (iblk m c 0 t) (iblk m c 1 t) k0_pay4 := by
  have h1 : ¬t.val % 8 = 7 := by omega
  rw [outsAt0_A m c t h0 h1]
  exact Pieces.scrA1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t)

/-- Accumulator 1 at a later column block: the point before's, plus this block's. -/
theorem next1 (c : Dev nD) (t : Fin cfg0.N) (h0 : ¬t.val % 8 = 0) :
    (outsAt0 m c t.val t.isLt).2.2.1 = k0_pay7 (iblk m c 0 t) (iblk m c 1 t) (outsAt0 m c (t.val - 1) (Nat.lt_of_le_of_lt (Nat.sub_le _ _) t.isLt)).2.2.1 := by
  by_cases h1 : t.val % 8 = 7
  · rw [outsAt0_C m c t h0 h1]
    exact Pieces.scrC1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2
  · rw [outsAt0_B m c t h0 h1]
    exact Pieces.scrB1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2

/-- Accumulator 2 at the first column block of a row block. -/
theorem first2 (c : Dev nD) (t : Fin cfg0.N) (h0 : t.val % 8 = 0) :
    (outsAt0 m c t.val t.isLt).2.2.2 = k0_pay1 (k0_pay8 (iblk m c 0 t) (iblk m c 1 t) k0_pay5) := by
  have h1 : ¬t.val % 8 = 7 := by omega
  rw [outsAt0_A m c t h0 h1]
  exact Pieces.scrA2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t)

/-- Accumulator 2 at a later column block: the point before's, plus this block's. -/
theorem next2 (c : Dev nD) (t : Fin cfg0.N) (h0 : ¬t.val % 8 = 0) :
    (outsAt0 m c t.val t.isLt).2.2.2 = k0_pay1 (k0_pay8 (iblk m c 0 t) (iblk m c 1 t) (outsAt0 m c (t.val - 1) (Nat.lt_of_le_of_lt (Nat.sub_le _ _) t.isLt)).2.2.2) := by
  by_cases h1 : t.val % 8 = 7
  · rw [outsAt0_C m c t h0 h1]
    exact Pieces.scrC2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2
  · rw [outsAt0_B m c t h0 h1]
    exact Pieces.scrB2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2

/-- The output block at the last column block of a row block: the combination of the accumulators as this point leaves them. -/
theorem last (c : Dev nD) (t : Fin cfg0.N) (h1 : t.val % 8 = 7) :
    (outsAt0 m c t.val t.isLt).1
      = k0_pay2 (outsAt0 m c t.val t.isLt).2.1 (outsAt0 m c t.val t.isLt).2.2.1 (outsAt0 m c t.val t.isLt).2.2.2 := by
  have h0 : ¬t.val % 8 = 0 := by omega
  rw [next0 m c t h0, next1 m c t h0, next2 m c t h0, outsAt0_C m c t h0 h1]
  exact Pieces.outC c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2

end Cert.KernelIdeal.Steps
end
-- ==== Proof.Consts.lean ====
/-
  The four f32 words the two programs spell, as the extended reals they denote: +0.0 is 0, 1.0 is 1, 262144.0 is the
  real 262144 = 2^18 (the reference's divisor, the row length N), and 3.81469727e-6 is exactly 2^-18 = 1/262144 (the
  kernel's folded reciprocal 1/N: a power of two, so the fold loses nothing).
-/
import Idealize.ShloMosaic.PureOps.Ideal

noncomputable section

namespace Cert.Consts

open Idealize.ShloMosaic

/-- The word of +0.0 denotes 0. -/
theorem ofBits_zero : Ideal.ofBits .f32 0x00000000#32 = 0 := by
  simp [Ideal.ofBits, Ideal.ieee]

/-- The word of 1.0 denotes 1. -/
theorem ofBits_one : Ideal.ofBits .f32 0x3F800000#32 = ((1 : ℝ) : EReal) := by
  simp [Ideal.ofBits, Ideal.ieee, -EReal.coe_mul]; norm_num

/-- The word of 262144.0 denotes the real 262144. -/
theorem ofBits_rowLen : Ideal.ofBits .f32 0x48800000#32 = ((262144 : ℝ) : EReal) := by
  simp [Ideal.ofBits, Ideal.ieee, -EReal.coe_mul]; norm_num

/-- The word 0x36800000 denotes 2^-18, which is 1/262144. -/
theorem ofBits_invRowLen : Ideal.ofBits .f32 0x36800000#32 = ((1 / 262144 : ℝ) : EReal) := by
  simp [Ideal.ofBits, Ideal.ieee, -EReal.coe_mul]; norm_num

end Cert.Consts

end
-- ==== Proof.Algebra.lean ====
/-
  The law that joins the two sides, over the extended reals with every entry a real number.

  For each row i let T = sum_n t(i,n), beta = 1 - T*c. A weight that is constant along a row leaves the row's sum:
      beta * sum_n t*lp + (1 - beta) * sum_n (1 - t)*lq = sum_n ((beta*t)*lp + ((1 - beta)*(1 - t))*lq),
  which is distributivity of a product over a finite sum. On the extended reals distributivity fails at the
  infinities, so it is proved over the reals and carried to the extended reals by the coercion, which commutes with
  +, -, * and finite sums of real numbers.
-/
import Mathlib.Data.EReal.Basic
import Mathlib.Data.EReal.Operations
import Mathlib.Algebra.BigOperators.Ring.Finset
import Mathlib.Tactic.Ring
import Mathlib.Tactic.NormNum

noncomputable section

namespace Cert.Algebra

open Finset

/-- The coercion of a finite sum of reals is the sum of the coercions. -/
theorem coe_sum {α : Type*} (s : Finset α) (f : α → ℝ) :
    ((∑ a ∈ s, f a : ℝ) : EReal) = ∑ a ∈ s, (f a : EReal) := by
  classical
  induction s using Finset.induction_on with
  | empty => simp
  | insert a s ha ih => rw [Finset.sum_insert ha, Finset.sum_insert ha, EReal.coe_add, ih]

variable {ι κ : Type*} [Fintype ι] [Fintype κ]

/-- The law over the reals. -/
theorem real_loss (t lp lq : ι → κ → ℝ) (c : ℝ) :
    (0 : ℝ) + ∑ i, ((0 : ℝ) - ((1 - (∑ n, t i n) * c) * (∑ n, t i n * lp i n)
        + (1 - (1 - (∑ n, t i n) * c)) * (∑ n, (1 - t i n) * lq i n)))
      = -(0 + ∑ i, ∑ n, (((1 - (0 + ∑ n', t i n') * c) * t i n) * lp i n
        + ((1 - (1 - (0 + ∑ n', t i n') * c)) * (1 - t i n)) * lq i n)) := by
  simp only [zero_add, zero_sub]
  rw [← Finset.sum_neg_distrib]
  refine Finset.sum_congr rfl fun i _ => ?_
  rw [Finset.mul_sum, Finset.mul_sum, ← Finset.sum_add_distrib]
  refine congrArg Neg.neg (Finset.sum_congr rfl fun n _ => ?_)
  ring

/-- The law over the extended reals, every entry the image of a real. -/
theorem ereal_loss (t lp lq : ι → κ → ℝ) (c : ℝ) :
    (0 : EReal) + ∑ i, ((0 : EReal) - ((((1 : ℝ) : EReal) - (∑ n, (t i n : EReal)) * (c : EReal)) * (∑ n, (t i n : EReal) * (lp i n : EReal))
        + (((1 : ℝ) : EReal) - (((1 : ℝ) : EReal) - (∑ n, (t i n : EReal)) * (c : EReal))) * (∑ n, (((1 : ℝ) : EReal) - (t i n : EReal)) * (lq i n : EReal))))
      = -((0 : EReal) + ∑ i, ∑ n, (((((1 : ℝ) : EReal) - ((0 : EReal) + ∑ n', (t i n' : EReal)) * (c : EReal)) * (t i n : EReal)) * (lp i n : EReal)
        + (((((1 : ℝ) : EReal) - (((1 : ℝ) : EReal) - ((0 : EReal) + ∑ n', (t i n' : EReal)) * (c : EReal))) * (((1 : ℝ) : EReal) - (t i n : EReal))) * (lq i n : EReal)))) := by
  have h := congrArg (fun r : ℝ => (r : EReal)) (real_loss t lp lq c)
  simp only [EReal.coe_add, EReal.coe_sub, EReal.coe_mul, EReal.coe_neg, EReal.coe_zero, coe_sum] at h
  exact h

end Cert.Algebra

end
-- ==== Proof.Spec.lean ====
/-
  The balanced cross-entropy of a [64, 262144] array p of probabilities against a [64, 262144] array t of targets, as
  ONE function of the two arrays over the extended reals, in the two arrangements the two programs compute, and the
  proof that they are the same number when every entry of t is a real and every entry of p is a real strictly between
  0 and 1.

  Per row i:  T = sum_n t(i,n),  S1 = sum_n t(i,n) * log p(i,n),  S2 = sum_n (1 - t(i,n)) * log (1 - p(i,n)).
  The kernel's arrangement: beta = 1 - T * 2^-18, the row's loss 0 - (beta * S1 + (1 - beta) * S2), the result the sum of
  the 64 row losses. The reference's: beta = 1 - T / 262144, the result minus the sum over ALL entries of
  (beta * t) * log p + ((1 - beta) * (1 - t)) * log (1 - p). Between 0 and 1 both logarithms are real numbers, division by
  262144 is multiplication by 2^-18, and the row weight leaves the row's sum (Algebra.lean).
-/
import Idealize.ShloMosaic.PureOps.Ideal
import Idealize.ShloMosaic.Lib.ValueIdx
import proofs.«100406_j39307540693710_2_alg».proof.Proof.Consts
import proofs.«100406_j39307540693710_2_alg».proof.Proof.Algebra

noncomputable section

namespace Cert.Loss

open Idealize.ShloMosaic Idealize.ShloMosaic.ValueIdx

abbrev SA : Shape := ⟨2, ![64, 262144]⟩
abbrev SC : Shape := ⟨2, ![64, 1]⟩

/-- The words of 0.0, 1.0, 262144.0 and 2^-18 as extended reals. -/
abbrev w0 : EReal := Ideal.ofBits .f32 0x00000000#32
abbrev w1 : EReal := Ideal.ofBits .f32 0x3F800000#32
abbrev wN : EReal := Ideal.ofBits .f32 0x48800000#32
abbrev wc : EReal := Ideal.ofBits .f32 0x36800000#32

/-- The three entrywise summands, of an entry p of the probabilities and t of the targets. -/
def gT (_p t : EReal) : EReal := t
def g1 (p t : EReal) : EReal := t * Ideal.log p
def g2 (p t : EReal) : EReal := (w1 - t) * Ideal.log (w1 - p)

/-- Row i's sum of an entrywise summand. -/
def rowSum (g : EReal → EReal → EReal) (p t : SA.Idx → EReal) (i : Fin 64) : EReal :=
  ∑ n : Fin 262144, g (p (ix2 i n)) (t (ix2 i n))

/-- Row i's loss, in the kernel's arrangement. -/
def rowLoss (p t : SA.Idx → EReal) (i : Fin 64) : EReal :=
  w0 - ((w1 - rowSum gT p t i * wc) * rowSum g1 p t i + (w1 - (w1 - rowSum gT p t i * wc)) * rowSum g2 p t i)

/-- The kernel's arrangement: the sum of the row losses. -/
def kernelLoss (p t : SA.Idx → EReal) : EReal := w0 + ∑ y : SC.Idx, rowLoss p t (y 0)

/-- The reference's arrangement: one sum over all entries, negated. -/
def refLoss (p t : SA.Idx → EReal) : EReal :=
  -(w0 + ∑ j : SA.Idx,
      (((w1 - Ideal.div (w0 + rowSum gT p t (j 0)) wN) * t j) * Ideal.log (p j)
        + ((w1 - (w1 - Ideal.div (w0 + rowSum gT p t (j 0)) wN)) * (w1 - t j)) * Ideal.log (w1 - p j)))

/-- The two arrangements agree on real targets and probabilities strictly inside (0, 1). -/
theorem kernelLoss_eq_refLoss (p t : SA.Idx → EReal)
    (hp : ∀ j, ∃ r : ℝ, p j = (r : EReal) ∧ 0 < r ∧ r < 1) (ht : ∀ j, ∃ r : ℝ, t j = (r : EReal)) :
    kernelLoss p t = refLoss p t := by
  choose P hP using hp
  choose T hT using ht
  obtain rfl : p = fun j => (P j : EReal) := funext fun j => (hP j).1
  obtain rfl : t = fun j => (T j : EReal) := funext hT
  have hlog : ∀ j, Ideal.log ((P j : ℝ) : EReal) = ((Real.log (P j) : ℝ) : EReal) := fun j => by
    rw [Ideal.log_coe, if_neg (not_le.mpr (hP j).2.1)]
  have hlog1 : ∀ j, Ideal.log (w1 - ((P j : ℝ) : EReal)) = ((Real.log (1 - P j) : ℝ) : EReal) := fun j => by
    rw [show w1 = ((1 : ℝ) : EReal) from Consts.ofBits_one, ← EReal.coe_sub, Ideal.log_coe,
      if_neg (not_le.mpr (by linarith [(hP j).2.2]))]
  unfold kernelLoss refLoss rowLoss rowSum gT g1 g2
  simp only [hlog, hlog1]
  simp only [w0, w1, wN, wc, Consts.ofBits_zero, Consts.ofBits_one, Consts.ofBits_rowLen, Consts.ofBits_invRowLen,
    Ideal.div_coe (by norm_num : (262144 : ℝ) ≠ 0)]
  rw [sum_idx2, sum_idx2]
  simp only [Fin.sum_univ_one]
  exact Algebra.ereal_loss (fun i n => T (ix2 i n)) (fun i n => Real.log (P (ix2 i n)))
    (fun i n => Real.log (1 - P (ix2 i n))) (1 / 262144)

end Cert.Loss

end
-- ==== Proof.LibColumnLayouts.lean ====
import Idealize.ShloMosaic.Lib.Pipeline.Value
import Idealize.ShloMosaic.Lib.ValueIdx

/-
  Layout changes around a row-wise reduction, read at an index (for any element type and any extents):

  * slab_as_rows   — a [1, n, 1, w] slab read as an [n, w] matrix: entry (r, d) is the slab's (0, r, 0, d);
  * rows_as_slab   — an [n, w] matrix read as a [1, n, 1, w] slab;
  * vec_as_column  — a length-n vector read as an [n, 1] column (what keeping the reduced axis does to a row-wise
                     reduction's result);
  * column_spread  — an [n, 1] column spread over b columns: entry (r, t) is the column's (r, 0).
-/

namespace Cert.LibColumnLayouts

open Idealize.ShloMosaic Idealize.ShloMosaic.ValueIdx

variable {α : Type}

/-- A [1, n, 1, w] slab read as [n, w]: entry (r, d) is the slab's (0, r, 0, d). -/
theorem slab_as_rows {n w : ℕ} (x : (⟨4, ![1, n, 1, w]⟩ : Shape).Idx → α)
    (h : (⟨4, ![1, n, 1, w]⟩ : Shape).ShapeCasts ⟨2, ![n, w]⟩) (r : Fin n) (d : Fin w) :
    shapeCast ⟨2, ![n, w]⟩ x h (ix2 r d) = x (ix4 (0 : Fin 1) r (0 : Fin 1) d) :=
  shapeCast_apply x h _ _ (by
    rw [Shape.rowMajor_val_four, Shape.rowMajor_val_two]
    show ((0 * n + r.val) * 1 + 0) * w + d.val = r.val * w + d.val
    rw [Nat.zero_mul, Nat.zero_add, Nat.mul_one, Nat.add_zero])

/-- [n, w] rows read as a [1, n, 1, w] slab: entry (u, r, v, d) is the matrix's (r, d). -/
theorem rows_as_slab {n w : ℕ} (x : (⟨2, ![n, w]⟩ : Shape).Idx → α)
    (h : (⟨2, ![n, w]⟩ : Shape).ShapeCasts ⟨4, ![1, n, 1, w]⟩) (u : Fin 1) (r : Fin n) (v : Fin 1) (d : Fin w) :
    shapeCast ⟨4, ![1, n, 1, w]⟩ x h (ix4 u r v d) = x (ix2 r d) :=
  shapeCast_apply x h _ _ (by
    rw [Shape.rowMajor_val_four, Shape.rowMajor_val_two]
    show r.val * w + d.val = ((u.val * n + r.val) * 1 + v.val) * w + d.val
    have hu : u.val = 0 := by omega
    have hv : v.val = 0 := by omega
    rw [hu, hv, Nat.zero_mul, Nat.zero_add, Nat.mul_one, Nat.add_zero])

/-- A length-n vector read as an [n, 1] column: entry (r, u) is the vector's r. -/
theorem vec_as_column {n : ℕ} (x : (⟨1, ![n]⟩ : Shape).Idx → α) (h : (⟨1, ![n]⟩ : Shape).ShapeCasts ⟨2, ![n, 1]⟩)
    (r : Fin n) (u : Fin 1) : shapeCast ⟨2, ![n, 1]⟩ x h (ix2 r u) = x (ix1 r) :=
  shapeCast_apply x h _ _ (by
    rw [Shape.rowMajor_val_two, Shape.rowMajor_val_one]
    show r.val = r.val * 1 + u.val
    have hu : u.val = 0 := by omega
    rw [hu, Nat.mul_one, Nat.add_zero])

/-- An [n, 1] column spread over b columns (n ≠ 1): entry (r, t) is the column's (r, 0). -/
theorem column_spread {n b : ℕ} (hb : b ≠ 1) (x : (⟨2, ![n, 1]⟩ : Shape).Idx → α) (h : (⟨2, ![n, 1]⟩ : Shape).Broadcasts ⟨2, ![n, b]⟩)
    (hn : n ≠ 1) (r : Fin n) (t : Fin b) : broadcastTo ⟨2, ![n, b]⟩ x h (ix2 r t) = x (ix2 r (0 : Fin 1)) := by
  refine broadcastTo_apply x h (ix2 r t) (ix2 r (0 : Fin 1)) fun a => ?_
  match a with
  | ⟨0, _⟩ =>
    show r.val = if n = 1 then 0 else r.val
    rw [if_neg hn]
  | ⟨1, _⟩ => rfl

end Cert.LibColumnLayouts
-- ==== Proof.Payload.lean ====
import proofs.«100406_j39307540693710_2_alg».proof.Proof.Gen.KernelIdeal.Skeleton
import proofs.«100406_j39307540693710_2_alg».proof.Proof.Spec
import proofs.«100406_j39307540693710_2_alg».proof.Proof.LibColumnLayouts
import Idealize.ShloMosaic.PureOps.Ideal.Laws
import Idealize.ShloMosaic.Lib.Pipeline.Value
import Idealize.ShloMosaic.Lib.ValueIdx

/-
  The body's arithmetic over the extended reals, read at a row r of a [32, 1] column.

  A lane sum of a [32, 32768] block kept as a column is, at row r, the sum over the block's 32768 lanes of that row. So the
  three accumulator updates add to the old value the block's row sum of, respectively, t, t * log p and
  (1 - t) * log (1 - p); the zero fill is 0; and the output is 0 - (beta * S1 + (1 - beta) * S2) with beta = 1 - T * 2^-18
  of the three accumulators T, S1, S2 at that row.
-/

noncomputable section

open Idealize.ShloMosaic Idealize.ShloMosaic.TcCoe

namespace Cert.KernelIdeal.Payload
open Cert.KernelIdeal Cert.KernelIdeal.Gen Idealize.ShloMosaic.ValueIdx Cert.Loss

/-- Row r of a block: the sum over its lanes of an entrywise summand g of the probabilities block x0 and the targets block x1. -/
def blkSum (g : EReal → EReal → EReal) (x0 x1 : FVec Ideal S32x32768 .f32) (r : Fin 32) : EReal :=
  ∑ k : Fin 32768, g (x0 (ix2 r k)) (x1 (ix2 r k))

/-- The lane sum of a [32, 32768] block, kept as a [32, 1] column, at row r. -/
theorem lane_sum (v : FVec Ideal S32x32768 .f32) (h : S32x32768.Reduces [1] S32) (hc : S32.ShapeCasts S32x1)
    (hφ : FKind.Formats .f32) (hacc : (0x00000000#32 : BitVec FTy.f32.bits) = FKind.add.neutral .f32 hφ) (r : Fin 32) (u : Fin 1) :
    shapeCast S32x1 (multiReduction (F := Ideal) .add [1] S32 v 0x00000000#32 h hφ hacc) hc (ix2 r u)
      = ∑ k : Fin 32768, v (ix2 r k) := by
  refine (Cert.LibColumnLayouts.vec_as_column _ hc r u).trans ?_
  refine (Ideal.multiReduction_add_single v 0x00000000#32 h hφ hacc (ix1 r)).trans ?_
  refine Finset.sum_congr rfl fun k _ => congrArg v (funext fun a => Fin.ext ?_)
  match a with
  | ⟨0, _⟩ => rfl
  | ⟨1, _⟩ => rfl

/-- The zero fills. -/
theorem pay3_apply (y : S32x1.Idx) : k0_pay3 (F := Ideal) y = w0 := by
  unfold k0_pay3; rw [shapeCast_self]; rfl
theorem pay4_apply (y : S32x1.Idx) : k0_pay4 (F := Ideal) y = w0 := by
  unfold k0_pay4; rw [shapeCast_self]; rfl
theorem pay5_apply (y : S32x1.Idx) : k0_pay5 (F := Ideal) y = w0 := by
  unfold k0_pay5; rw [shapeCast_self]; rfl

/-- The running sum of the targets. -/
theorem pay6_apply (x0 x1 : FVec Ideal S32x32768 .f32) (xs : FVec Ideal S32x1 .f32) (r : Fin 32) (u : Fin 1) :
    k0_pay6 (F := Ideal) x1 xs (ix2 r u) = xs (ix2 r u) + blkSum gT x0 x1 r := by
  unfold k0_pay6
  rw [shapeCast_self]
  exact congrArg (xs (ix2 r u) + ·) (lane_sum x1 _ _ _ _ r u)

/-- The running sum of t * log p. -/
theorem pay7_apply (x0 x1 : FVec Ideal S32x32768 .f32) (xs : FVec Ideal S32x1 .f32) (r : Fin 32) (u : Fin 1) :
    k0_pay7 (F := Ideal) x0 x1 xs (ix2 r u) = xs (ix2 r u) + blkSum g1 x0 x1 r := by
  unfold k0_pay7
  rw [shapeCast_self]
  exact congrArg (xs (ix2 r u) + ·) ((lane_sum (mulf x1 (log x0)) _ _ _ _ r u).trans rfl)

/-- The running sum of (1 - t) * log (1 - p). -/
theorem pay8_apply (x0 x1 : FVec Ideal S32x32768 .f32) (xs : FVec Ideal S32x1 .f32) (r : Fin 32) (u : Fin 1) :
    k0_pay1 (F := Ideal) (k0_pay8 (F := Ideal) x0 x1 xs) (ix2 r u) = xs (ix2 r u) + blkSum g2 x0 x1 r := by
  unfold k0_pay1 k0_pay8
  rw [shapeCast_self]
  exact congrArg (xs (ix2 r u) + ·)
    ((lane_sum (mulf (subf (broadcast S32x32768 (Scalar.ofBits .f32 0x3F800000#32)) x1)
      (log (subf (broadcast S32x32768 (Scalar.ofBits .f32 0x3F800000#32)) x0))) _ _ _ _ r u).trans rfl)

/-- The output row: the balanced combination of the three accumulators. -/
theorem pay2_apply (a b d : FVec Ideal S32x1 .f32) (y : S32x1.Idx) :
    k0_pay2 (F := Ideal) a b d y = w0 - ((w1 - a y * wc) * b y + (w1 - (w1 - a y * wc)) * d y) := rfl

end Cert.KernelIdeal.Payload
end
-- ==== Proof.Acc.lean ====
import proofs.«100406_j39307540693710_2_alg».proof.Proof.Steps
import proofs.«100406_j39307540693710_2_alg».proof.Proof.Payload

/-
  The accumulators in closed form. After the grid's point n = 8*b + j each accumulator holds, at row r of its column,
  0 plus the sum over the column blocks 0..j of row block b of that block's row-r sum of the accumulator's summand
  (t, t * log p, (1 - t) * log (1 - p)). By induction on the point: j = 0 restarts the sum, every other j adds one term.
-/

noncomputable section

open Idealize.ShloMosaic Idealize.ShloMosaic.TcCoe Idealize.SL.Sem

namespace Cert.KernelIdeal.Acc
open Cert.KernelIdeal Cert.KernelIdeal.Gen Idealize.ShloMosaic.ValueIdx Cert.Loss Cert.KernelIdeal.Payload

variable (m : (ℓ : Loc nD τ sig) → Buf (Elt Ideal) ℓ) (c : Dev nD)

/-- Row r's sum of the summand g over the block of the grid's point k (0 past the grid). -/
def blockTerm (g : EReal → EReal → EReal) (k : ℕ) (r : Fin 32) : EReal :=
  if hk : k < cfg0.N then blkSum g (iblk m c 0 ⟨k, hk⟩) (iblk m c 1 ⟨k, hk⟩) r else 0

/-- The running sum after point n: 0 plus the terms of the column blocks 0 .. n % 8 of row block n / 8. -/
def running (g : EReal → EReal → EReal) (n : ℕ) (r : Fin 32) : EReal :=
  w0 + ∑ s ∈ Finset.range (n % 8 + 1), blockTerm m c g (8 * (n / 8) + s) r

theorem running_first (g : EReal → EReal → EReal) (n : ℕ) (hn : n < cfg0.N) (h0 : n % 8 = 0) (r : Fin 32) :
    running m c g n r = w0 + blkSum g (iblk m c 0 ⟨n, hn⟩) (iblk m c 1 ⟨n, hn⟩) r := by
  unfold running
  have e : 8 * (n / 8) = n := by omega
  rw [h0, e]
  show w0 + ∑ s ∈ Finset.range 1, _ = _
  have e4 : blockTerm m c g n r = blkSum g (iblk m c 0 ⟨n, hn⟩) (iblk m c 1 ⟨n, hn⟩) r := by
    unfold blockTerm; exact dif_pos hn
  rw [Finset.sum_range_one, Nat.add_zero, e4]

theorem running_next (g : EReal → EReal → EReal) (k : ℕ) (hk : k + 1 < cfg0.N) (h0 : ¬(k + 1) % 8 = 0) (r : Fin 32) :
    running m c g (k + 1) r = running m c g k r + blkSum g (iblk m c 0 ⟨k + 1, hk⟩) (iblk m c 1 ⟨k + 1, hk⟩) r := by
  unfold running
  have e1 : (k + 1) % 8 = k % 8 + 1 := by omega
  have e2 : (k + 1) / 8 = k / 8 := by omega
  have e3 : 8 * (k / 8) + (k % 8 + 1) = k + 1 := by omega
  have e4 : blockTerm m c g (k + 1) r = blkSum g (iblk m c 0 ⟨k + 1, hk⟩) (iblk m c 1 ⟨k + 1, hk⟩) r := by
    unfold blockTerm; exact dif_pos hk
  rw [e1, e2, Finset.sum_range_succ, ← add_assoc, e3, e4]

/-- The three accumulators after point n, at row r. -/
def Inv (n : ℕ) (hn : n < cfg0.N) (r : Fin 32) (u : Fin 1) : Prop :=
  (outsAt0 m c n hn).2.1 (ix2 r u) = running m c gT n r
    ∧ (outsAt0 m c n hn).2.2.1 (ix2 r u) = running m c g1 n r
    ∧ (outsAt0 m c n hn).2.2.2 (ix2 r u) = running m c g2 n r

theorem inv_first (n : ℕ) (hn : n < cfg0.N) (h0 : n % 8 = 0) (r : Fin 32) (u : Fin 1) : Inv m c n hn r u := by
  refine ⟨?_, ?_, ?_⟩
  · rw [running_first m c gT n hn h0 r]
    refine (congrFun (Steps.first0 m c ⟨n, hn⟩ h0) (ix2 r u)).trans ?_
    exact (pay6_apply (iblk m c 0 ⟨n, hn⟩) (iblk m c 1 ⟨n, hn⟩) k0_pay3 r u).trans (congrArg (· + _) (pay3_apply _))
  · rw [running_first m c g1 n hn h0 r]
    refine (congrFun (Steps.first1 m c ⟨n, hn⟩ h0) (ix2 r u)).trans ?_
    exact (pay7_apply (iblk m c 0 ⟨n, hn⟩) (iblk m c 1 ⟨n, hn⟩) k0_pay4 r u).trans (congrArg (· + _) (pay4_apply _))
  · rw [running_first m c g2 n hn h0 r]
    refine (congrFun (Steps.first2 m c ⟨n, hn⟩ h0) (ix2 r u)).trans ?_
    exact (pay8_apply (iblk m c 0 ⟨n, hn⟩) (iblk m c 1 ⟨n, hn⟩) k0_pay5 r u).trans (congrArg (· + _) (pay5_apply _))

theorem inv_next (k : ℕ) (hk : k + 1 < cfg0.N) (h0 : ¬(k + 1) % 8 = 0) (r : Fin 32) (u : Fin 1)
    (ih : Inv m c k (Nat.lt_of_succ_lt hk) r u) : Inv m c (k + 1) hk r u := by
  obtain ⟨i0, i1, i2⟩ := ih
  refine ⟨?_, ?_, ?_⟩
  · rw [running_next m c gT k hk h0 r, ← i0]
    refine (congrFun (Steps.next0 m c ⟨k + 1, hk⟩ h0) (ix2 r u)).trans ?_
    exact pay6_apply (iblk m c 0 ⟨k + 1, hk⟩) (iblk m c 1 ⟨k + 1, hk⟩) (outsAt0 m c k (Nat.lt_of_succ_lt hk)).2.1 r u
  · rw [running_next m c g1 k hk h0 r, ← i1]
    refine (congrFun (Steps.next1 m c ⟨k + 1, hk⟩ h0) (ix2 r u)).trans ?_
    exact pay7_apply (iblk m c 0 ⟨k + 1, hk⟩) (iblk m c 1 ⟨k + 1, hk⟩) (outsAt0 m c k (Nat.lt_of_succ_lt hk)).2.2.1 r u
  · rw [running_next m c g2 k hk h0 r, ← i2]
    refine (congrFun (Steps.next2 m c ⟨k + 1, hk⟩ h0) (ix2 r u)).trans ?_
    exact pay8_apply (iblk m c 0 ⟨k + 1, hk⟩) (iblk m c 1 ⟨k + 1, hk⟩) (outsAt0 m c k (Nat.lt_of_succ_lt hk)).2.2.2 r u

/-- The invariant at every point. -/
theorem inv : ∀ (n : ℕ) (hn : n < cfg0.N) (r : Fin 32) (u : Fin 1), Inv m c n hn r u
  | 0, hn, r, u => inv_first m c 0 hn rfl r u
  | k + 1, hn, r, u =>
    if h0 : (k + 1) % 8 = 0 then inv_first m c (k + 1) hn h0 r u
    else inv_next m c k hn h0 r u (inv k (Nat.lt_of_succ_lt hn) r u)

/-- The output block a last column block writes, at row r: the row's loss over the whole row block's accumulators. -/
theorem out_last (t : Fin cfg0.N) (h1 : t.val % 8 = 7) (r : Fin 32) (u : Fin 1) :
    (outsAt0 m c t.val t.isLt).1 (ix2 r u)
      = w0 - ((w1 - running m c gT t.val r * wc) * running m c g1 t.val r
          + (w1 - (w1 - running m c gT t.val r * wc)) * running m c g2 t.val r) := by
  obtain ⟨i0, i1, i2⟩ := inv m c t.val t.isLt r u
  rw [← i0, ← i1, ← i2]
  exact (congrFun (Steps.last m c t h1) (ix2 r u)).trans (pay2_apply _ _ _ _)

end Cert.KernelIdeal.Acc
end
-- ==== Proof.LibSumTiles.lean ====
/-
  A sum over Fin (a * b) taken tile by tile: the sum over the a tiles of the sum over the b positions inside a tile, position
  (j, i) standing for the index j * b + i. What joins a reduction a kernel accumulates block by block along a grid axis with the
  one whole reduction of a reference. Stated over any commutative additive monoid, so also over the extended reals.
-/
import Mathlib.Algebra.BigOperators.Fin
import Mathlib.Logic.Equiv.Fin.Basic

namespace Cert.LibSumTiles

/-- Index j * b + i of tile j, position i. -/
def tileIx {a b : ℕ} (j : Fin a) (i : Fin b) : Fin (a * b) :=
  ⟨j.val * b + i.val, by
    have hj := j.isLt; have hi := i.isLt
    have h1 : j.val * b + i.val < (j.val + 1) * b := by rw [Nat.add_mul, Nat.one_mul]; omega
    exact lt_of_lt_of_le h1 (Nat.mul_le_mul_right b hj)⟩

@[simp] theorem tileIx_val {a b : ℕ} (j : Fin a) (i : Fin b) : (tileIx j i).val = j.val * b + i.val := rfl

/-- The whole sum is the sum of the tiles' sums. -/
theorem sum_tiles {M : Type} [AddCommMonoid M] {a b : ℕ} (f : Fin (a * b) → M) :
    ∑ q : Fin (a * b), f q = ∑ j : Fin a, ∑ i : Fin b, f (tileIx j i) := by
  rw [← Equiv.sum_comp (finProdFinEquiv (m := a) (n := b)) f, Fintype.sum_prod_type]
  refine Finset.sum_congr rfl fun j _ => Finset.sum_congr rfl fun i _ => congrArg f (Fin.ext ?_)
  simp [finProdFinEquiv, tileIx, Nat.mul_comm, Nat.add_comm]

end Cert.LibSumTiles
-- ==== Proof.KValue.lean ====
import proofs.«100406_j39307540693710_2_alg».proof.Proof.Acc
import proofs.«100406_j39307540693710_2_alg».proof.Proof.LibSumTiles
import Idealize.ShloMosaic.Lib.StableHlo.Run

/-
  From blocks to the array, and the result. The grid's point t = 8*b + j reads rows 32*b .. 32*b + 31 and columns
  32768*j .. 32768*j + 32767 of both inputs, so the sum over j = 0..7 of the block row sums is the sum over the whole
  row of 262144 entries, and at its last column block the kernel writes the row losses of rows 32*b .. 32*b + 31 into
  the [64, 1] array: after the run that array holds the row loss of every row, and the host's sum over it is the
  kernel's arrangement of the loss.
-/

noncomputable section

open Idealize.ShloMosaic Idealize.ShloMosaic.TcCoe Idealize.SL.Sem
open Idealize.ShloMosaic.Pipeline (Dat)

namespace Cert.KernelIdeal.KValue
open Cert.KernelIdeal Cert.KernelIdeal.Gen Idealize.ShloMosaic.ValueIdx Cert.Loss Cert.KernelIdeal.Payload Cert.KernelIdeal.Acc

variable (m : (ℓ : Loc nD τ sig) → Buf (Elt Ideal) ℓ) (ρ : Dev nD → PrngReg)

/-- The block indices of the three windows at a point: row block t / 8, column block t % 8 (the output's: column 0). -/
theorem idx_facts : ∀ t : Fin cfg0.N,
    win0_0.index t (0 : Fin 2) = t.val / 8 ∧ win0_0.index t (1 : Fin 2) = t.val % 8
    ∧ win0_1.index t (0 : Fin 2) = t.val / 8 ∧ win0_1.index t (1 : Fin 2) = t.val % 8
    ∧ win0_2.index t (0 : Fin 2) = t.val / 8 ∧ win0_2.index t (1 : Fin 2) = 0 :=
  (by decide +kernel : ∀ t : Fin grid0.N, _)

/-- The probabilities block of point t at (r, l) is the array at row 32 * (t / 8) + r, column 32768 * (t % 8) + l. -/
theorem iblk0_apply (c : Dev nD) (t : Fin cfg0.N) (r : Fin 32) (l : Fin 32768) (i : Fin 64) (n : Fin 262144)
    (hi : i.val = 32 * (t.val / 8) + r.val) (hn : n.val = 32768 * (t.val % 8) + l.val) :
    iblk m c 0 t (ix2 r l) = m ((c : Thread nD τ).loc main_arg0) (ix2 i n) := by
  obtain ⟨e0, e1, -⟩ := idx_facts t
  show V m c main_arg0 (((cfg0.win 0).blk t).view.emb (ix2 r l)) = _
  rw [V_main_arg0]
  refine congrArg _ (funext fun a => Fin.ext ?_)
  match a with
  | ⟨0, _⟩ => show win0_0.index t (0 : Fin 2) * 32 + 1 * r.val = i.val; omega
  | ⟨1, _⟩ => show win0_0.index t (1 : Fin 2) * 32768 + 1 * l.val = n.val; omega

/-- The targets block likewise. -/
theorem iblk1_apply (c : Dev nD) (t : Fin cfg0.N) (r : Fin 32) (l : Fin 32768) (i : Fin 64) (n : Fin 262144)
    (hi : i.val = 32 * (t.val / 8) + r.val) (hn : n.val = 32768 * (t.val % 8) + l.val) :
    iblk m c 1 t (ix2 r l) = m ((c : Thread nD τ).loc main_arg1) (ix2 i n) := by
  obtain ⟨-, -, e0, e1, -⟩ := idx_facts t
  show V m c main_arg1 (((cfg0.win 1).blk t).view.emb (ix2 r l)) = _
  rw [V_main_arg1]
  refine congrArg _ (funext fun a => Fin.ext ?_)
  match a with
  | ⟨0, _⟩ => show win0_1.index t (0 : Fin 2) * 32 + 1 * r.val = i.val; omega
  | ⟨1, _⟩ => show win0_1.index t (1 : Fin 2) * 32768 + 1 * l.val = n.val; omega

/-- Column 32768 * s + l of a row: position l of column block s. -/
def colIx (s : Fin 8) (l : Fin 32768) : Fin 262144 := ⟨32768 * s.val + l.val, by have := s.isLt; have := l.isLt; omega⟩

/-- A row's sum taken column block by column block. -/
theorem rowSum_cols (g : EReal → EReal → EReal) (p t : SA.Idx → EReal) (i : Fin 64) :
    rowSum g p t i = ∑ s : Fin 8, ∑ l : Fin 32768, g (p (ix2 i (colIx s l))) (t (ix2 i (colIx s l))) := by
  unfold rowSum
  refine (Cert.LibSumTiles.sum_tiles (a := 8) (b := 32768) (fun n : Fin 262144 => g (p (ix2 i n)) (t (ix2 i n)))).trans ?_
  refine Finset.sum_congr rfl fun s _ => Finset.sum_congr rfl fun l _ => ?_
  have e : (Cert.LibSumTiles.tileIx s l : Fin 262144) = colIx s l := Fin.ext (by
    show s.val * 32768 + l.val = 32768 * s.val + l.val; omega)
  show g (p (ix2 i (Cert.LibSumTiles.tileIx s l : Fin 262144))) (t (ix2 i (Cert.LibSumTiles.tileIx s l : Fin 262144))) = _
  rw [e]

/-- At the last column block of a row block the running sum is the whole row's sum. -/
theorem running_last (c : Dev nD) (g : EReal → EReal → EReal) (t : Fin cfg0.N) (h1 : t.val % 8 = 7) (r : Fin 32)
    (i : Fin 64) (hi : i.val = 32 * (t.val / 8) + r.val) :
    running m c g t.val r = rowSum g (m ((c : Thread nD τ).loc main_arg0)) (m ((c : Thread nD τ).loc main_arg1)) i := by
  have hN : cfg0.N = 16 := N_0
  have ht : t.val < cfg0.N := t.isLt
  unfold running
  rw [h1, rowSum_cols]
  show Ideal.ofBits .f32 0x00000000#32 + ∑ s ∈ Finset.range 8, _ = _
  rw [Consts.ofBits_zero, zero_add, Finset.sum_range]
  refine Finset.sum_congr rfl fun s _ => ?_
  have hs : s.val < 8 := s.isLt
  have hk : 8 * (t.val / 8) + s.val < cfg0.N := by omega
  unfold blockTerm
  rw [dif_pos hk]
  unfold blkSum
  refine Finset.sum_congr rfl fun l _ => ?_
  exact congrArg₂ g
    (iblk0_apply m c ⟨8 * (t.val / 8) + s.val, hk⟩ r l i (colIx s l)
      (by show i.val = 32 * ((8 * (t.val / 8) + s.val) / 8) + r.val; omega)
      (by show 32768 * s.val + l.val = 32768 * ((8 * (t.val / 8) + s.val) % 8) + l.val; omega))
    (iblk1_apply m c ⟨8 * (t.val / 8) + s.val, hk⟩ r l i (colIx s l)
      (by show i.val = 32 * ((8 * (t.val / 8) + s.val) / 8) + r.val; omega)
      (by show 32768 * s.val + l.val = 32768 * ((8 * (t.val / 8) + s.val) % 8) + l.val; omega))

/-- What the [64, 1] array holds after the run: every row's loss. -/
abbrev rowLosses (c : Dev nD) : S64x1.Idx → EReal := fun y =>
  rowLoss (m ((c : Thread nD τ).loc main_arg0)) (m ((c : Thread nD τ).loc main_arg1)) (y 0)

/-- A last column block writes back the row losses of its 32 rows. -/
theorem flushed_eq (c : Dev nD) (t : Fin cfg0.N) (hf : (cfg0.win 2).flush t = true) :
    (dats m 0 c).flushed 2 t = ((cfg0.win 2).blk t).view.read (Elt Ideal) (rowLosses m c) := by
  have h1 : t.val % 8 = 7 := (flush0_2 t).mp hf
  obtain ⟨-, -, -, -, e0, e1⟩ := idx_facts t
  show (cfg0.win 2).cut (grid0.coords t) ((dats m 0 c).after 2 t) = _
  rw [after0_2]
  funext y
  obtain ⟨r, u, rfl⟩ : ∃ (r : Fin 32) (u : Fin 1), y = ix2 r u := ⟨y 0, y 1, eq_ix2 y⟩
  show (outsAt0 m c t.val t.isLt).1 (ix2 r u) = rowLosses m c (((cfg0.win 2).blk t).view.emb (ix2 r u))
  have hi : ((((cfg0.win 2).blk t).view.emb (ix2 r u)) 0).val = 32 * (t.val / 8) + r.val := by
    show win0_2.index t (0 : Fin 2) * 32 + 1 * r.val = _; omega
  rw [out_last m c t h1 r u, running_last m c gT t h1 r _ hi, running_last m c g1 t h1 r _ hi,
    running_last m c g2 t h1 r _ hi]
  rfl

/-- Which rows a point's output block holds. -/
theorem mem_blk (t : Fin cfg0.N) (i : S64x1.Idx) :
    i ∈ ((cfg0.win 2).blk t).view.set ↔ ∀ a : Fin 2, win0_2.index t a * S32x1.size a ≤ (i a).val
      ∧ (i a).val < win0_2.index t a * S32x1.size a + S32x1.size a := by
  show i ∈ ((View.whole main_v0).slice (win0_2.rect t)).set ↔ _
  rw [View.set_slice_whole, Rect.mem_set_unit]
  exact Iff.rfl

/-- Every row is written by the last column block of its row block. -/
theorem cover (i : S64x1.Idx) :
    ∃ t : Fin cfg0.N, (cfg0.win 2).flush t = true ∧ i ∈ ((cfg0.win 2).blk t).view.set := by
  have hN : cfg0.N = 16 := N_0
  have hi0 : (i 0).val < 64 := (i 0).isLt
  have hi1 : (i 1).val < 1 := (i 1).isLt
  obtain ⟨tt, htt⟩ : ∃ tt : Fin cfg0.N, tt.val = 8 * ((i 0).val / 32) + 7 := ⟨⟨8 * ((i 0).val / 32) + 7, by omega⟩, rfl⟩
  obtain ⟨-, -, -, -, e0, e1⟩ := idx_facts tt
  refine ⟨tt, (flush0_2 tt).mpr (by omega), ?_⟩
  rw [mem_blk]
  intro a
  match a with
  | ⟨0, _⟩ =>
    show win0_2.index tt (0 : Fin 2) * 32 ≤ (i 0).val ∧ (i 0).val < win0_2.index tt (0 : Fin 2) * 32 + 32
    omega
  | ⟨1, _⟩ =>
    show win0_2.index tt (1 : Fin 2) * 1 ≤ (i 1).val ∧ (i 1).val < win0_2.index tt (1 : Fin 2) * 1 + 1
    omega

/-- The [64, 1] array after the run: the row losses. -/
theorem final (c : Dev nD) : (dats m 0 c).arrAt 2 cfg0.N = rowLosses m c :=
  (dats m 0 c).arrAt_eq_of_cover 2 (rowLosses m c) (flushed_eq m c) cover

/-- The host's sum over that array is the kernel's arrangement of the loss. -/
theorem tail_eq (c : Dev nD) :
    Pipeline.afterTail₀ cfgs (dats m) 0 (V0 m) [hostOps1] c main_v1
      = fun _ => kernelLoss (m ((c : Thread nD τ).loc main_arg0)) (m ((c : Thread nD τ).loc main_arg1)) := by
  unfold Pipeline.afterTail₀
  show StableHlo.after hostOps1 _ (Proc.devRef .tc main_v1) = _
  after_results
  have e : Pipeline.withArrays (cfgs 0).spec c (V0 m c) (fun w => (dats m 0 c).arrAt w (cfgs 0).N) (Proc.devRef .tc main_v0)
      = rowLosses m c :=
    (Pipeline.withArrays_arr spec0 launch0.win.arr_inj c _ _ 2).trans (final m c)
  rw [e]
  funext i
  simp only [Host.reduceAdd, Ideal.hostReduceAdd_def]
  refine (Ideal.hostReduceAdd_total reducesTo_S64x1_S_d0_1 (fun b => b.elim0) (rowLosses m c) _ i).trans ?_
  rfl

/-- The kernel's run, read: its result is the kernel's arrangement of the loss of its two arguments, which it leaves unchanged. -/
theorem run : θ_run defs (onTc (τ := τ) (main (F := Ideal))) ⟨m, fun _ => 0, ρ⟩ fun r => ∀ c : Dev nD,
      r.2.mem ((c : Thread nD τ).loc main_v1)
        = (fun _ => kernelLoss (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v1 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KValue
end
-- ==== Proof.RefValue.lean ====
import proofs.«100406_j39307540693710_2_alg».proof.Proof.Gen.ReferenceIdeal.Read
import proofs.«100406_j39307540693710_2_alg».proof.Proof.Spec

/-
  The reference's result, operation by operation, is the one-sum arrangement of the loss (Spec.lean): the mean of a
  row of targets is the row's sum divided by 262144, beta is one minus it, and the result is minus the sum over all
  entries of (beta * t) * log p + ((1 - beta) * (1 - t)) * log (1 - p), beta read at the entry's row.
-/

noncomputable section

open Idealize.ShloMosaic Idealize.ShloMosaic.TcCoe

namespace Cert.ReferenceIdeal.RefValue
open Cert.ReferenceIdeal Cert.ReferenceIdeal.Gen Cert.ReferenceIdeal.Read Idealize.ShloMosaic.ValueIdx Cert.Loss

/-- Entry j's row, entry k of that row: the index the row sum reads, through the two broadcasts of the row's weight. -/
theorem idx_row6 (j : S64x262144.Idx) (k : Fin 262144) :
    idx_main_v0 (idx_main_v1 (idx_main_v6 j)) k = ix2 (j 0) k :=
  funext fun a => Fin.ext (by match a with | ⟨0, _⟩ => rfl | ⟨1, _⟩ => rfl)

theorem idx_row14 (j : S64x262144.Idx) (k : Fin 262144) :
    idx_main_v0 (idx_main_v1 (idx_main_v14 j)) k = ix2 (j 0) k :=
  funext fun a => Fin.ext (by match a with | ⟨0, _⟩ => rfl | ⟨1, _⟩ => rfl)

/-- The reference's result is the one-sum arrangement. -/
theorem ref_eq (x0 x1 : (⟨S64x262144, .f32⟩ : BufTy).Contents (Elt Ideal)) (i : S_.Idx) :
    val_main_v22 (F := Ideal) x0 x1 i = refLoss x0 x1 := by
  rw [val_main_v22_apply, val_main_v21_apply]
  unfold refLoss rowSum gT
  show -(w0 + ∑ j : S64x262144.Idx, val_main_v20 (F := Ideal) x0 x1 j) = _
  refine congrArg (fun s : EReal => -(w0 + s)) (Finset.sum_congr rfl fun j _ => ?_)
  simp only [val_main_v20_apply, val_main_v9_apply, val_main_v19_apply, val_main_v7_apply, val_main_v8_apply,
    val_main_v15_apply, val_main_v18_apply, val_main_v17_apply, val_main_v13_apply, val_main_v6_apply, val_main_v14_apply,
    val_main_v11_apply, val_main_v5_apply, val_main_v3_apply, val_main_v1_apply, val_main_v0_apply, val_main_v2_apply,
    val_main_v4_apply, val_main_v10_apply, val_main_v12_apply, val_main_v16_apply, val_main_cst_apply, val_main_cst_0_apply,
    val_main_cst_1_apply, val_main_cst_2_apply, val_main_cst_3_apply, val_main_cst_4_apply, idx_row6, idx_row14,
    Ideal.addf_def, Ideal.mulf_def, Ideal.subf_def, Ideal.hostDivf_def, Ideal.hostUnary_log_def, Ideal.ofBits_def]
  rfl

end Cert.ReferenceIdeal.RefValue
end
-- ==== Proof.LibFiniteIsReal.lean ====
import Idealize.ShloMosaic.Lib.ReduceAll
import Idealize.ShloMosaic.Lib.ValueIdx
import Idealize.ShloMosaic.PureOps.Ideal

/-
  "Every entry is finite" read over the extended reals (any shape).

  A host predicate of the form  all(|x| < +∞)  — the absolute value taken entrywise, compared strictly with the splat
  of the word 0x7F800000, the comparisons folded by `and` from `true` into a scalar — holds exactly when no entry of
  x is +∞ or −∞, so when it holds every entry of x is (the image of) a real number:

  * word_inf                 — the word 0x7F800000 denotes +∞;
  * real_of_abs_lt_inf       — max a (−a) < +∞ makes a a real number;
  * all_real_of_all_finite   — the predicate, for an array of any shape reduced over any axes to a scalar, gives a real
                               number at every index.
-/

noncomputable section

namespace Cert.LibFiniteIsReal

open Idealize.ShloMosaic

/-- The word 0x7F800000 denotes +∞. -/
theorem word_inf : Ideal.ofBits .f32 0x7F800000#32 = (⊤ : EReal) := by
  simp [Ideal.ofBits, Ideal.ieee]

/-- An extended real whose absolute value is strictly below +∞ is a real number. -/
theorem real_of_abs_lt_inf (a : EReal)
    (h : Ideal.cmp .olt (max a (-a)) (Ideal.ofBits .f32 0x7F800000#32) = 1#1) : ∃ r : ℝ, a = (r : EReal) := by
  rw [word_inf] at h
  induction a using EReal.rec with
  | bot => simp [Ideal.cmp] at h
  | coe r => exact ⟨r, rfl⟩
  | top => simp [Ideal.cmp] at h

/-- The scalar shape has one index. -/
instance : Subsingleton (⟨0, ![]⟩ : Shape).Idx := ⟨fun _ _ => funext fun d => d.elim0⟩

/-- If all(|x| < +∞) holds of an array x of any shape, every entry of x is a real number. -/
theorem all_real_of_all_finite {s : Shape} {axes : List (Fin s.rank)} (x : FVec Ideal s .f32)
    (hb : (⟨0, ![]⟩ : Shape).BroadcastsInDim s (![] : Fin 0 → Fin s.rank))
    (hr : s.ReducesTo axes (⟨0, ![]⟩ : Shape)) (h0 : 0 < (⟨0, ![]⟩ : Shape).numel)
    (e : Host.reduce IntOp.andi
          (cmpf .olt (Host.absf x) (broadcastInDim s ![] hb (constant (F := Ideal) (⟨0, ![]⟩ : Shape) .f32 0x7F800000#32)))
          (constantI (⟨0, ![]⟩ : Shape) 1 1#1) hr h0 ValueIdx.ix0 = 1#1) :
    ∀ j, ∃ r : ℝ, x j = (r : EReal) :=
  fun j => real_of_abs_lt_inf _ (Host.reduce_andi_all _ _ hr h0 _ e j)

end Cert.LibFiniteIsReal

end
-- ==== Proof.Finite.lean ====
import proofs.«100406_j39307540693710_2_alg».proof.Pre_finite_inputs
import proofs.«100406_j39307540693710_2_alg».proof.Proof.Gen.Pre_finite_inputs
import proofs.«100406_j39307540693710_2_alg».proof.Proof.LibFiniteIsReal
import proofs.«100406_j39307540693710_2_alg».proof.Proof.Consts
import Idealize.ShloMosaic.Lib.Affine
import Idealize.ShloMosaic.Lib.ReduceAll
import Idealize.ShloMosaic.Lib.ValueIdx

/-
  What the precondition says over the extended reals: every entry of the targets is a real number, and every entry
  of the probabilities is a real number strictly between 0 and 1 (finite, above 0, below 1), which is where both
  logarithms of the loss are real.
-/

noncomputable section

open Idealize.ShloMosaic

namespace Cert.Finite
open Cert.Pre_finite_inputs

/-- A strict comparison "greater than" that answers true. -/
theorem lt_of_cmp_ogt {x y : EReal} (h : Ideal.cmp .ogt x y = 1#1) : y < x := by
  by_contra hn
  simp [Ideal.cmp, hn] at h

/-- A strict comparison "less than" that answers true. -/
theorem lt_of_cmp_olt {x y : EReal} (h : Ideal.cmp .olt x y = 1#1) : x < y := by
  by_contra hn
  simp [Ideal.cmp, hn] at h

/-- The precondition over the extended reals. -/
theorem of_pre (p t : FVec Ideal S64x262144 .f32)
    (h : Cert.Pre_finite_inputs.fn (F := Ideal) p t = fun _ => 1#1) :
    (∀ j, ∃ r : ℝ, p j = (r : EReal) ∧ 0 < r ∧ r < 1) ∧ (∀ j, ∃ r : ℝ, t j = (r : EReal)) := by
  have h0 := congrFun h ValueIdx.ix0
  dsimp only [fn, fn_part1] at h0
  obtain ⟨h12, h15⟩ := IntOp.andi_eq_one.mp h0
  obtain ⟨h8, h11⟩ := IntOp.andi_eq_one.mp h12
  obtain ⟨h3, h7⟩ := IntOp.andi_eq_one.mp h8
  have hp := Cert.LibFiniteIsReal.all_real_of_all_finite p _ _ _ h3
  have ht := Cert.LibFiniteIsReal.all_real_of_all_finite t _ _ _ h7
  refine ⟨fun j => ?_, ht⟩
  obtain ⟨r, hr⟩ := hp j
  have g0 : Ideal.cmp .ogt (p j) (Ideal.ofBits .f32 0x00000000#32) = 1#1 := Host.reduce_andi_all _ _ _ _ _ h11 j
  have g1 : Ideal.cmp .olt (p j) (Ideal.ofBits .f32 0x3F800000#32) = 1#1 := Host.reduce_andi_all _ _ _ _ _ h15 j
  rw [hr, Consts.ofBits_zero] at g0
  rw [hr, Consts.ofBits_one] at g1
  exact ⟨r, hr, EReal.coe_pos.mp (lt_of_cmp_ogt g0), EReal.coe_lt_coe_iff.mp (lt_of_cmp_olt g1)⟩

end Cert.Finite
end
-- ==== Proof.lean ====
/-
  The balanced cross-entropy kernel against its jnp reference, over the extended reals.

  Both programs take probabilities p and targets t, float32[64, 262144]. With T_i = sum_n t(i,n) and
  beta_i = 1 - T_i / 262144, the reference returns
      - sum_{i,n} ( (beta_i * t) * log p + ((1 - beta_i) * (1 - t)) * log (1 - p) ).
  The kernel streams 32 x 32768 tiles, keeps per row the three running sums T, S1 = sum t * log p and
  S2 = sum (1 - t) * log (1 - p) across the eight column tiles of a row block, and at the last one writes
      0 - (beta_i * S1 + (1 - beta_i) * S2),   beta_i = 1 - T_i * 2^-18,
  for its 32 rows; the host then sums the 64 row values.

  The two agree because a row's weight beta_i is constant along the row and so leaves the row's sum (distributivity),
  because 2^-18 is exactly 1/262144, and because a sum does not depend on how it is tiled. Distributivity on the
  extended reals needs every term to be a real number: the precondition gives real targets and probabilities
  strictly between 0 and 1, where log p and log (1 - p) are real.

  The pieces: Spec.lean states both arrangements and proves them equal (over Algebra.lean's law and Consts.lean's
  words); RefValue.lean reads the reference's run as the one-sum arrangement; Pieces, Steps, Payload and Acc read the
  kernel's accumulators point by point as running sums, and KValue.lean the [64, 1] array and the final sum as the
  row-wise arrangement; Finite.lean reads the precondition.
-/
import proofs.«100406_j39307540693710_2_alg».proof.Defs
import proofs.«100406_j39307540693710_2_alg».proof.Proof.Gen.Kernel
import proofs.«100406_j39307540693710_2_alg».proof.Proof.Gen.Kernel.Frame
import proofs.«100406_j39307540693710_2_alg».proof.Proof.Gen.KernelIdeal
import proofs.«100406_j39307540693710_2_alg».proof.Proof.Gen.KernelIdeal.Frame
import proofs.«100406_j39307540693710_2_alg».proof.Proof.Gen.ReferenceIdeal
import proofs.«100406_j39307540693710_2_alg».proof.Proof.Gen.ReferenceIdeal.Run
import proofs.«100406_j39307540693710_2_alg».proof.Proof.Gen.ReferenceIdeal.Read
import proofs.«100406_j39307540693710_2_alg».proof.Proof.Gen.Pre_finite_inputs
import proofs.«100406_j39307540693710_2_alg».proof.Proof.KValue
import proofs.«100406_j39307540693710_2_alg».proof.Proof.RefValue
import proofs.«100406_j39307540693710_2_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both runs end at the loss of the (agreeing) arguments: the kernel's in the row-wise arrangement, the reference's
    in the one-sum arrangement, equal on real targets and probabilities inside (0, 1). -/
theorem algebraic : Cert.algebraic_KernelIdeal_ReferenceIdeal := by
  intro m ρ m' ρ' hpre hagree
  refine ⟨fun c => fun _ => Cert.Loss.kernelLoss (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v22_eq, (hagree c).1, (hagree c).2]
  funext i
  rw [Cert.ReferenceIdeal.RefValue.ref_eq]
  obtain ⟨hp, ht⟩ := Cert.Finite.of_pre _ _ (hpre c)
  exact (Cert.Loss.kernelLoss_eq_refLoss _ _ hp ht).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
